-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128 : Shape := ⟨2, ![1024, 128]⟩
abbrev S1048576x128 : Shape := ⟨2, ![1048576, 128]⟩
abbrev S128x128 : Shape := ⟨2, ![128, 128]⟩
abbrev S128 : Shape := ⟨1, ![128]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S1048576x128 : S_.BroadcastsInDim S1048576x128 (![] : Fin 0 → Fin S1048576x128.rank)
  reducesTo_S1048576x128_S_d0_1 : S1048576x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  main_v28

def fn {F : FTy → Type} [FloatOps F] (main_arg0 : FVec F S1024x128 .f32) (main_arg1 : FVec F S1048576x128 .f32) (main_arg2 : FVec F S128x128 .f32) (main_arg3 : FVec F S128 .f32) (main_arg4 : FVec F S128x128 .f32) (main_arg5 : FVec F S128x128 .f32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S1048576x128 .f32 := Host.absf main_arg1
  let main_cst_0 : FVec F S_ .f32 := constant S_ .f32 0x7F800000#32
  let main_v5 : FVec F S1048576x128 .f32 := broadcastInDim S1048576x128 ![] bcast_S_S1048576x128 main_cst_0
  let main_v6 : IVec S1048576x128 1 := cmpf .olt main_v4 main_v5
  let main_c_1 : IVec S_ 1 := constantI S_ 1 1#1
  let main_v7 : IVec S_ 1 := (fun x v => Host.reduce IntOp.andi x v reducesTo_S1048576x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S1024x128 : Shape := ⟨2, ![1024, 128]⟩
abbrev S1048576x128 : Shape := ⟨2, ![1048576, 128]⟩
abbrev S128x128 : Shape := ⟨2, ![128, 128]⟩
abbrev S128 : Shape := ⟨1, ![128]⟩
abbrev S128x1024 : Shape := ⟨2, ![128, 1024]⟩
abbrev S1024x1024 : Shape := ⟨2, ![1024, 1024]⟩
abbrev S1x128 : Shape := ⟨2, ![1, 128]⟩
abbrev S1024x1024x128 : Shape := ⟨3, ![1024, 1024, 128]⟩
abbrev S16x1024x128 : Shape := ⟨3, ![16, 1024, 128]⟩
abbrev S16x1024 : Shape := ⟨2, ![16, 1024]⟩
abbrev S8x1024x128 : Shape := ⟨3, ![8, 1024, 128]⟩
abbrev S8192x128 : Shape := ⟨2, ![8192, 128]⟩
abbrev S8x1024 : Shape := ⟨2, ![8, 1024]⟩
abbrev S8x1024x1 : Shape := ⟨3, ![8, 1024, 1]⟩

abbrev nBuf : Space → Nat
  | .hbm => 17
  | .vmem => 8
  | .smem => 0
  | _ => 0

abbrev bufTy : (tb : Table) → Fin (tcTables nBuf tb) → BufTy
  | .hbm, ⟨0, _⟩ => ⟨S1024x128, .f32⟩
  | .hbm, ⟨1, _⟩ => ⟨S1048576x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S1024x128, .f32⟩
  | .hbm, ⟨8, _⟩ => ⟨S128x128, .f32⟩
  | .hbm, ⟨9, _⟩ => ⟨S1024x128, .f32⟩
  | .hbm, ⟨10, _⟩ => ⟨S128x1024, .f32⟩
  | .hbm, ⟨11, _⟩ => ⟨S1024x1024, .f32⟩
  | .hbm, ⟨12, _⟩ => ⟨S128x128, .f32⟩
  | .hbm, ⟨13, _⟩ => ⟨S1x128, .f32⟩
  | .hbm, ⟨14, _⟩ => ⟨S1024x1024x128, .f32⟩
  | .hbm, ⟨15, _⟩ => ⟨S1024x1024x128, .f32⟩
  | .hbm, ⟨16, _⟩ => ⟨S1048576x128, .f32⟩
  | .local _ .vmem, ⟨0, _⟩ => ⟨S16x1024x128, .f32⟩
  | .local _ .vmem, ⟨1, _⟩ => ⟨S16x1024x128, .f32⟩
  | .local _ .vmem, ⟨2, _⟩ => ⟨S16x1024, .f32⟩
  | .local _ .vmem, ⟨3, _⟩ => ⟨S16x1024, .f32⟩
  | .local _ .vmem, ⟨4, _⟩ => ⟨S128x128, .f32⟩
  | .local _ .vmem, ⟨5, _⟩ => ⟨S1x128, .f32⟩
  | .local _ .vmem, ⟨6, _⟩ => ⟨S16x1024x128, .f32⟩
  | .local _ .vmem, ⟨7, _⟩ => ⟨S16x1024x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S128x128_S128x128_1_0 : S128x128.Transposes [1, 0] S128x128
  transposes_S1024x128_S128x1024_1_0 : S1024x128.Transposes [1, 0] S128x1024
  shapeCasts_S128_S1x128 : S128.ShapeCasts S1x128
  shapeCasts_S1048576x128_S1024x1024x128 : S1048576x128.ShapeCasts S1024x1024x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S16x1024x128_S8x1024x128_0_0_0 : ∀ a, (![0, 0, 0] : Fin 3 → Nat) a + S8x1024x128.size a ≤ S16x1024x128.size a
  h_S8x1024x128 : 0 < S8x1024x128.numel
  shapeCasts_S8x1024x128_S8x1024x128 : S8x1024x128.ShapeCasts S8x1024x128
  shapeCasts_S8x1024x128_S8192x128 : S8x1024x128.ShapeCasts S8192x128
  broadcasts_S1x128_S8192x128 : S1x128.Broadcasts S8192x128
  shapeCasts_S8192x128_S8x1024x128 : S8192x128.ShapeCasts S8x1024x128
  inb_S16x1024_S8x1024_0_0 : ∀ a, (![0, 0] : Fin 2 → Nat) a + S8x1024.size a ≤ S16x1024.size a
  h_S8x1024 : 0 < S8x1024.numel
  shapeCasts_S8x1024_S8x1024 : S8x1024.ShapeCasts S8x1024
  shapeCasts_S8x1024_S8x1024x1 : S8x1024.ShapeCasts S8x1024x1
  broadcasts_S8x1024x1_S8x1024x128 : S8x1024x1.Broadcasts S8x1024x128
  inb_S16x1024x128_S8x1024x128_8_0_0 : ∀ a, (![8, 0, 0] : Fin 3 → Nat) a + S8x1024x128.size a ≤ S16x1024x128.size a
  inb_S16x1024_S8x1024_8_0 : ∀ a, (![8, 0] : Fin 2 → Nat) a + S8x1024.size a ≤ S16x1024.size a
  shapeCasts_S1024x1024x128_S1048576x128 : S1024x1024x128.ShapeCasts S1048576x128
  dot_S1024x128_S128x128_S1024x128_1_0_0_1_n_n_wf : DotDims.WF S1024x128 S128x128 S1024x128 [1] [0] [0] [1] [] []
  dot_S1024x128_S128x1024_S1024x1024_1_0_0_1_n_n_wf : DotDims.WF S1024x128 S128x1024 S1024x1024 [1] [0] [0] [1] [] []
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x1024x128.size a ≤ S1024x1024x128.size a
  hwx0_0 : ∀ i : grid0.Coords, EltTy.bits .f32 = 32 ∨ (Rect.block (s := S1024x1024x128) S16x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x1024.size a ≤ S1024x1024.size a
  hwx0_1 : ∀ i : grid0.Coords, EltTy.bits .f32 = 32 ∨ (Rect.block (s := S1024x1024) S16x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x1024x128.size a ≤ S1024x1024x128.size a
  hwx0_4 : ∀ i : grid0.Coords, EltTy.bits .f32 = 32 ∨ (Rect.block (s := S1024x1024x128) S16x1024x128.size (cc0_transform_4 i) (hinb0_4 i)).WholeWords (EltTy.packing .f32)

variable [Facts₀]

def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_v8) S16x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S16x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S16x1024x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024x128 : Shape := ⟨2, ![1024, 128]⟩
abbrev S1048576x128 : Shape := ⟨2, ![1048576, 128]⟩
abbrev S128x128 : Shape := ⟨2, ![128, 128]⟩
abbrev S128 : Shape := ⟨1, ![128]⟩
abbrev S1x128 : Shape := ⟨2, ![1, 128]⟩
abbrev S1024x1024 : Shape := ⟨2, ![1024, 1024]⟩
abbrev S1048576x1 : Shape := ⟨2, ![1048576, 1]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S1048576x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S1048576x128, .f32⟩
  | .hbm, ⟨8, _⟩ => ⟨S1x128, .f32⟩
  | .hbm, ⟨9, _⟩ => ⟨S1048576x128, .f32⟩
  | .hbm, ⟨10, _⟩ => ⟨S1048576x128, .f32⟩
  | .hbm, ⟨11, _⟩ => ⟨S128x128, .f32⟩
  | .hbm, ⟨12, _⟩ => ⟨S1024x128, .f32⟩
  | .hbm, ⟨13, _⟩ => ⟨S128x128, .f32⟩
  | .hbm, ⟨14, _⟩ => ⟨S1024x128, .f32⟩
  | .hbm, ⟨15, _⟩ => ⟨S1024x1024, .f32⟩
  | .hbm, ⟨16, _⟩ => ⟨S1048576x1, .f32⟩
  | .hbm, ⟨17, _⟩ => ⟨S1048576x128, .f32⟩
  | .hbm, ⟨18, _⟩ => ⟨S1048576x128, .f32⟩
  | .hbm, ⟨19, _⟩ => ⟨S_, .f32⟩
  | .hbm, ⟨20, _⟩ => ⟨S1048576x128, .f32⟩
  | .hbm, ⟨21, _⟩ => ⟨S1048576x128, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call0_cst : Ref sig .tc := ⟨.hbm, 19, rfl⟩
abbrev main_call0_v0 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S1048576x128_0_1 : S1x128.BroadcastsInDim S1048576x128 (![0, 1] : Fin 2 → Fin S1048576x128.rank)
  shapeCasts_S1024x1024_S1048576x1 : S1024x1024.ShapeCasts S1048576x1
  bcast_S1048576x1_S1048576x128_0_1 : S1048576x1.BroadcastsInDim S1048576x128 (![0, 1] : Fin 2 → Fin S1048576x128.rank)
  bcast_S_S1048576x128 : S_.BroadcastsInDim S1048576x128 (![] : Fin 0 → Fin S1048576x128.rank)
  dot_S1048576x128_S128x128_S1048576x128_1_0_0_1_n_n_wf : DotDims.WF S1048576x128 S128x128 S1048576x128 [1] [0] [0] [1] [] []
  dot_S1024x128_S128x128_S1024x128_1_0_0_1_n_n_wf : DotDims.WF S1024x128 S128x128 S1024x128 [1] [0] [0] [1] [] []
  dot_S1024x128_S1024x128_S1024x1024_1_1_0_0_n_n_wf : DotDims.WF S1024x128 S1024x128 S1024x1024 [1] [1] [0] [0] [] []

variable [Facts₀]

def dot_S1048576x128_S128x128_S1048576x128_1_0_0_1_n_n : DotDims S1048576x128 S128x128 S1048576x128 where
  lhsContracting := [1]
  rhsContracting := [0]
  lhsNonContracting := [0]
  rhsNonContracting := [1]
  lhsBatch := []
  rhsBatch := []
  wf := dot_S1048576x128_S128x128_S1048576x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

class Facts : Prop extends Facts₀ where

variable [Facts]
-- ==== Proof.LibPlainDot.lean ====
/-
  A product of two matrices read at an entry, on the extended reals.

  For dimension numbers that contract the left operand's second axis with the right operand's first (an M×K matrix
  times a K×N matrix, no batch axis), the contraction index has a single coordinate, and entry (r, c) of the product
  is the sum over k : Fin K of left (r, k) · right (k, c). The two forms in which a printed program spells such a
  product — the host's `dot_general`, and a `tpu.matmul` into the zero accumulator — are both that sum: the host's has no
  accumulator, and the zero word added on the left changes nothing.

  The statements take any dimension record `D` together with a proof that it is the plain record; for a printed record
  that proof is `rfl`.
-/
import Idealize.ShloMosaic.PureOps.Ideal.Laws
import Idealize.ShloMosaic.Lib.ValueIdx

noncomputable section

namespace Idealize.ShloMosaic.PlainDot

open Idealize.ShloMosaic Idealize.ShloMosaic.ValueIdx

variable {M K N : Nat}

/-- The left operand is read on its row axis at the entry's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand is read on its column axis at the entry's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction of a plain product, re-indexed by the one contracted coordinate. -/
theorem sum_eq (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (j : (⟨2, ![M, N]⟩ : Shape).Idx) :
    ∑ q : D.contr.Idx, l (D.lhsIdx j q) * r (D.rhsIdx j q) = ∑ k : Fin K, l (ix2 (j 0) k) * r (ix2 k (j 1)) := by
  subst hD
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact rhs_col _ _)
  exact congrArg₂ (fun x y => l x * r y) el er

/-- The host's `dot_general` of a plain product at an entry. -/
theorem hostDot_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    Host.dotGeneral D prec l r j = ∑ k : Fin K, l (ix2 (j 0) k) * r (ix2 k (j 1)) := by
  simp only [Host.dotGeneral]
  rw [Ideal.dotGeneral_apply]
  exact sum_eq D hD l r j

/-- A `tpu.matmul` of a plain product into the zero accumulator at an entry. -/
theorem matmul_zero_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 k (j 1)) := by
  simp only [matmul]
  rw [Ideal.matmul_constant_zero_apply]
  exact sum_eq D hD l r j

end Idealize.ShloMosaic.PlainDot

end
-- ==== Proof.KernelBody.lean ====
/-
  One store of the kernel body, read at an entry.

  The body handles a block of 16 source nodes in two halves of 8. For a half it flattens the [8, 1024, 128] slab of edge
  rows to an [8192, 128] matrix (row (p, q) of the slab is row 1024·p + q of the matrix), multiplies by the [128, 128]
  weight block, adds the bias row to every row, restores the slab shape, adds to all 128 entries of row (p, q) the number
  at (p, q) of the [8, 1024] block of node-pair inner products, and takes the maximum with zero. The changes of float format on
  the way are the identity on the extended reals. So entry (p, q, h) of what is stored is

      max ( (Σ_k slab (p, q, k) · weight (k, h) + bias (0, h)) + pairs (p, q) , 0 ).
-/
import proofs.«174411_j23983097381473_2_alg».proof.Proof.Gen.KernelIdeal.Skeleton
import proofs.«174411_j23983097381473_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

variable {α : Type}

/-- Row (p, q) of the slab is row 1024·p + q of the flattened matrix. -/
def flat (p : Fin 8) (q : Fin 1024) : Fin 8192 := ⟨p.val * 1024 + q.val, by omega⟩

/-- The slab flattened, read at a row that came from (p, q). -/
theorem flatten_apply (x : S8x1024x128.Idx → α) (h : S8x1024x128.ShapeCasts S8192x128) (p : Fin 8) (q : Fin 1024) (k : Fin 128) :
    shapeCast S8192x128 x h (ix2 (flat p q) k) = x (ix3 p q k) :=
  shapeCast_apply x h _ _ (by
    rw [Shape.rowMajor_val_three, Shape.rowMajor_val_two]
    rfl)

/-- The matrix restored to the slab shape, read at (p, q, c). -/
theorem unflatten_apply (y : S8192x128.Idx → α) (h : S8192x128.ShapeCasts S8x1024x128) (p : Fin 8) (q : Fin 1024) (c : Fin 128) :
    shapeCast S8x1024x128 y h (ix3 p q c) = y (ix2 (flat p q) c) :=
  shapeCast_apply y h _ _ (by
    rw [Shape.rowMajor_val_three, Shape.rowMajor_val_two]
    rfl)

/-- The [8, 1024] block given a trailing unit axis. -/
theorem column_apply (d : S8x1024.Idx → α) (h : S8x1024.ShapeCasts S8x1024x1) (p : Fin 8) (q : Fin 1024) (u : Fin 1) :
    shapeCast S8x1024x1 d h (ix3 p q u) = d (ix2 p q) :=
  shapeCast_apply d h _ _ (by
    rw [Shape.rowMajor_val_three, Shape.rowMajor_val_two]
    show p.val * 1024 + q.val = (p.val * 1024 + q.val) * 1 + u.val
    omega)

/-- That unit axis broadcast over the 128 entries of a row: every entry of row (p, q) reads the one number of the row. -/
theorem spread_apply (z : S8x1024x1.Idx → α) (h : S8x1024x1.Broadcasts S8x1024x128) (p : Fin 8) (q : Fin 1024) (c : Fin 128) :
    broadcastTo S8x1024x128 z h (ix3 p q c) = z (ix3 p q (0 : Fin 1)) := by
  refine broadcastTo_apply z h (ix3 p q c) (ix3 p q (0 : Fin 1)) fun ax => ?_
  match ax with
  | ⟨0, _⟩ => show p.val = if (8 : Nat) = 1 then 0 else p.val; rw [if_neg (by decide)]
  | ⟨1, _⟩ => show q.val = if (1024 : Nat) = 1 then 0 else q.val; rw [if_neg (by decide)]
  | ⟨2, _⟩ => show 0 = if (1 : Nat) = 1 then 0 else c.val; rw [if_pos rfl]

/-! ## The stored half block at an entry -/

/-- Entry (p, q, h) of the body's first store, from the four blocks it loaded: the weight block `we`, the bias row `b`,
    the slab of edge rows `e` and the block of node-pair inner products `d`. -/
theorem halfBlock_apply (we : Vec Ideal S128x128 .f32) (b : Vec Ideal S1x128 .f32) (e : Vec Ideal S8x1024x128 .f32)
    (d : Vec Ideal S8x1024 .f32) (p : Fin 8) (q : Fin 1024) (h : Fin 128) :
    k0_pay3 (F := Ideal) we b e d (ix3 p q h)
      = max ((∑ k : Fin 128, e (ix3 p q k) * we (ix2 k h)) + b (ix2 (0 : Fin 1) h) + d (ix2 p q))
          (Ideal.ofBits .f32 0x00000000#32) := by
  unfold k0_pay3 k0_pay1 k0_pay2
  dsimp only
  rw [maximumf_apply, addf_apply, unflatten_apply, addf_apply, spread_apply, column_apply, shapeCast_self,
    broadcastTo_1b_ab_apply, shapeCast_self,
    PlainDot.matmul_zero_apply dot_S8192x128_S128x128_S8192x128_1_0_0_1_n_n rfl, shapeCast_self, shapeCast_self]
  refine congrArg₂ max (congrArg₂ (· + ·) (congrArg₂ (· + ·) (Finset.sum_congr rfl fun k _ => ?_) rfl) rfl) rfl
  show shapeCast S8192x128 e shapeCasts_S8x1024x128_S8192x128 (ix2 (flat p q) k) * we (ix2 k h) = _
  rw [flatten_apply]

/-- The body's second store is the same function of its four loads. -/
theorem secondHalf_eq {F : FTy → Type} [FloatOps F] : k0_pay4 (F := F) = k0_pay3 (F := F) := rfl

end Cert.KernelIdeal.Body

end
-- ==== Proof.RegionValue.lean ====
/-
  The region's result array as one function of the four arrays it reads.

  The grid has 64 points. Point t works on source nodes 16·t … 16·t + 15: it is handed rows 16·t … 16·t + 15 of the edge
  array (all 1024 destination nodes, all 128 features) and of the table of node-pair inner products, the whole transposed
  weight matrix and the whole bias row, and writes back rows 16·t … 16·t + 15 of the result. The body stores the block in two
  halves of 8 source nodes, each computed from the matching halves of its inputs by the same arithmetic. So what point t writes
  back is, entry by entry, ONE function of the whole arrays restricted to its block:

      whole (a, b, h) = max ( (Σ_k A (a, b, k) · W (k, h) + B (0, h)) + D (a, b) , 0 ),

  and since the 64 blocks tile the result array, the array ends holding that function.
-/
import proofs.«174411_j23983097381473_2_alg».proof.Proof.Gen.KernelIdeal.Frame
import proofs.«174411_j23983097381473_2_alg».proof.Proof.KernelBody
import Idealize.ShloMosaic.Lib.Pipeline.Value
import Idealize.ShloMosaic.Lib.ValueIdx

set_option maxRecDepth 16384

noncomputable section

namespace Cert.KernelIdeal.Region

open Cert.KernelIdeal Cert.KernelIdeal.Gen Idealize.ShloMosaic Idealize.ShloMosaic.TcCoe Idealize.SL.Sem
open Idealize.ShloMosaic.Pipeline (Dat)
open Idealize.ShloMosaic.ValueIdx Cert.KernelIdeal.Body

/-- The region's result as one function of the arrays it reads: the edge rows `A`, the table of inner products `D`, the
    transposed weight matrix `W` and the bias row `B`. -/
def whole (A : S1024x1024x128.Idx → EReal) (D : S1024x1024.Idx → EReal) (W : S128x128.Idx → EReal) (B : S1x128.Idx → EReal) :
    S1024x1024x128.Idx → EReal := fun i =>
  max ((∑ k : Fin 128, A (ix3 (i 0) (i 1) k) * W (ix2 k (i 2))) + B (ix2 (0 : Fin 1) (i 2)) + D (ix2 (i 0) (i 1)))
    (Ideal.ofBits .f32 0x00000000#32)

/-- `whole` at an entry given by its three coordinates. -/
theorem whole_apply (A : S1024x1024x128.Idx → EReal) (D : S1024x1024.Idx → EReal) (W : S128x128.Idx → EReal) (B : S1x128.Idx → EReal)
    (a b : Fin 1024) (h : Fin 128) :
    whole A D W B (ix3 a b h)
      = max ((∑ k : Fin 128, A (ix3 a b k) * W (ix2 k h)) + B (ix2 (0 : Fin 1) h) + D (ix2 a b)) (Ideal.ofBits .f32 0x00000000#32) := rfl

/-- A stored half block is `whole` on the eight source nodes `row 0 … row 7` it covers, whenever the four loaded values are
    the arrays read there: the weight block and the bias row whole, the slab and the block of inner products at those rows. -/
theorem half_eq (A : S1024x1024x128.Idx → EReal) (D : S1024x1024.Idx → EReal) (W : S128x128.Idx → EReal) (B : S1x128.Idx → EReal)
    (we : Vec Ideal S128x128 .f32) (b : Vec Ideal S1x128 .f32) (e : Vec Ideal S8x1024x128 .f32) (d : Vec Ideal S8x1024 .f32)
    (row : Fin 8 → Fin 1024)
    (hw : ∀ k h : Fin 128, we (ix2 k h) = W (ix2 k h)) (hb : ∀ h : Fin 128, b (ix2 (0 : Fin 1) h) = B (ix2 (0 : Fin 1) h))
    (he : ∀ (p : Fin 8) (q : Fin 1024) (k : Fin 128), e (ix3 p q k) = A (ix3 (row p) q k))
    (hd : ∀ (p : Fin 8) (q : Fin 1024), d (ix2 p q) = D (ix2 (row p) q))
    (p : Fin 8) (q : Fin 1024) (h : Fin 128) :
    k0_pay3 (F := Ideal) we b e d (ix3 p q h) = whole A D W B (ix3 (row p) q h) := by
  rw [halfBlock_apply]
  unfold whole
  simp only [hw, hb, he, hd]

/-- The printed index maps over the grid: the edge rows, the inner products and the result move one block of 16 source nodes
    per point; the weight matrix and the bias stay. -/
theorem idx_facts : ∀ t : Fin cfg0.N, win0_4.index t (0 : Fin 3) = t.val ∧ win0_4.index t (1 : Fin 3) = 0 ∧ win0_4.index t (2 : Fin 3) = 0
    ∧ win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

theorem point_lt (t : Fin cfg0.N) : t.val < 64 := lt_of_lt_of_eq t.isLt N_0

variable (m : (ℓ : Loc nD τ sig) → Buf (Elt Ideal) ℓ)

/-- One half of point `t`'s block: the eight source nodes 16·t + o … 16·t + o + 7, for the offset `o` (0 or 8) the
    half's rectangles start at. Stated over the loaded values as variables, the facts about them as hypotheses. -/
theorem half_at (c : Dev nD) (t : Fin cfg0.N) (o : Nat) (ho : o + 8 ≤ 16)
    (we : Vec Ideal S128x128 .f32) (b : Vec Ideal S1x128 .f32) (e : Vec Ideal S8x1024x128 .f32) (d : Vec Ideal S8x1024 .f32)
    (hw : ∀ k h : Fin 128, we (ix2 k h) = V m c main_v6 (ix2 k h))
    (hb : ∀ h : Fin 128, b (ix2 (0 : Fin 1) h) = V m c main_v7 (ix2 (0 : Fin 1) h))
    (he : ∀ (p : Fin 8) (q : Fin 1024) (k : Fin 128),
      e (ix3 p q k) = V m c main_v8 (ix3 (⟨16 * t.val + o + p.val, by have := point_lt t; omega⟩ : Fin 1024) q k))
    (hd : ∀ (p : Fin 8) (q : Fin 1024),
      d (ix2 p q) = V m c main_v5 (ix2 (⟨16 * t.val + o + p.val, by have := point_lt t; omega⟩ : Fin 1024) q))
    (p : Fin 8) (q : Fin 1024) (h : Fin 128) :
    k0_pay3 (F := Ideal) we b e d (ix3 p q h)
      = whole (V m c main_v8) (V m c main_v5) (V m c main_v6) (V m c main_v7)
          (ix3 (⟨16 * t.val + o + p.val, by have := point_lt t; omega⟩ : Fin 1024) q h) :=
  half_eq (V m c main_v8) (V m c main_v5) (V m c main_v6) (V m c main_v7) we b e d
    (fun p => ⟨16 * t.val + o + p.val, by have := point_lt t; omega⟩) hw hb he hd p q h

/-! ## The body's loads, through the windows' blocks, are the arrays read at the block's place -/

/-- The weight block is the whole transposed weight matrix. -/
theorem weight_load (c : Dev nD) (t : Fin cfg0.N) (k h : Fin 128) :
    View.ld (iblk m c 2 t) r0_0 (ix2 k h) = V m c main_v6 (ix2 k h) := by
  obtain ⟨-, -, -, -, -, -, -, -, i20, i21, -, -⟩ := idx_facts t
  show V m c main_v6 (((cfg0.win 2).blk t).view.emb (r0_0.emb (ix2 k h))) = _
  refine congrArg (V m c main_v6) (funext fun a => Fin.ext ?_)
  match a with
  | ⟨0, _⟩ => show win0_2.index t (0 : Fin 2) * 128 + 1 * (0 + 1 * k.val) = k.val; omega
  | ⟨1, _⟩ => show win0_2.index t (1 : Fin 2) * 128 + 1 * (0 + 1 * h.val) = h.val; omega

/-- The bias block is the whole bias row. -/
theorem bias_load (c : Dev nD) (t : Fin cfg0.N) (h : Fin 128) :
    View.ld (iblk m c 3 t) r0_1 (ix2 (0 : Fin 1) h) = V m c main_v7 (ix2 (0 : Fin 1) h) := by
  obtain ⟨-, -, -, -, -, -, -, -, -, -, i30, i31⟩ := idx_facts t
  show V m c main_v7 (((cfg0.win 3).blk t).view.emb (r0_1.emb (ix2 (0 : Fin 1) h))) = _
  refine congrArg (V m c main_v7) (funext fun a => Fin.ext ?_)
  match a with
  | ⟨0, _⟩ => show win0_3.index t (0 : Fin 2) * 1 + 1 * (0 + 1 * 0) = 0; omega
  | ⟨1, _⟩ => show win0_3.index t (1 : Fin 2) * 128 + 1 * (0 + 1 * h.val) = h.val; omega

/-- The first slab of edge rows: source nodes 16·t … 16·t + 7. -/
theorem slab_load_lo (c : Dev nD) (t : Fin cfg0.N) (p : Fin 8) (q : Fin 1024) (k : Fin 128) :
    View.ld (iblk m c 0 t) r0_2 (ix3 p q k)
      = V m c main_v8 (ix3 (⟨16 * t.val + 0 + p.val, by have := point_lt t; omega⟩ : Fin 1024) q k) := by
  obtain ⟨-, -, -, i00, i01, i02, -⟩ := idx_facts t
  show V m c main_v8 (((cfg0.win 0).blk t).view.emb (r0_2.emb (ix3 p q k))) = _
  refine congrArg (V m c main_v8) (funext fun a => Fin.ext ?_)
  match a with
  | ⟨0, _⟩ => show win0_0.index t (0 : Fin 3) * 16 + 1 * (0 + 1 * p.val) = 16 * t.val + 0 + p.val; omega
  | ⟨1, _⟩ => show win0_0.index t (1 : Fin 3) * 1024 + 1 * (0 + 1 * q.val) = q.val; omega
  | ⟨2, _⟩ => show win0_0.index t (2 : Fin 3) * 128 + 1 * (0 + 1 * k.val) = k.val; omega

/-- The second slab: source nodes 16·t + 8 … 16·t + 15. -/
theorem slab_load_hi (c : Dev nD) (t : Fin cfg0.N) (p : Fin 8) (q : Fin 1024) (k : Fin 128) :
    View.ld (iblk m c 0 t) r0_4 (ix3 p q k)
      = V m c main_v8 (ix3 (⟨16 * t.val + 8 + p.val, by have := point_lt t; omega⟩ : Fin 1024) q k) := by
  obtain ⟨-, -, -, i00, i01, i02, -⟩ := idx_facts t
  show V m c main_v8 (((cfg0.win 0).blk t).view.emb (r0_4.emb (ix3 p q k))) = _
  refine congrArg (V m c main_v8) (funext fun a => Fin.ext ?_)
  match a with
  | ⟨0, _⟩ => show win0_0.index t (0 : Fin 3) * 16 + 1 * (8 + 1 * p.val) = 16 * t.val + 8 + p.val; omega
  | ⟨1, _⟩ => show win0_0.index t (1 : Fin 3) * 1024 + 1 * (0 + 1 * q.val) = q.val; omega
  | ⟨2, _⟩ => show win0_0.index t (2 : Fin 3) * 128 + 1 * (0 + 1 * k.val) = k.val; omega

/-- The matching rows of the table of inner products. -/
theorem pairs_load_lo (c : Dev nD) (t : Fin cfg0.N) (p : Fin 8) (q : Fin 1024) :
    View.ld (iblk m c 1 t) r0_3 (ix2 p q)
      = V m c main_v5 (ix2 (⟨16 * t.val + 0 + p.val, by have := point_lt t; omega⟩ : Fin 1024) q) := by
  obtain ⟨-, -, -, -, -, -, i10, i11, -⟩ := idx_facts t
  show V m c main_v5 (((cfg0.win 1).blk t).view.emb (r0_3.emb (ix2 p q))) = _
  refine congrArg (V m c main_v5) (funext fun a => Fin.ext ?_)
  match a with
  | ⟨0, _⟩ => show win0_1.index t (0 : Fin 2) * 16 + 1 * (0 + 1 * p.val) = 16 * t.val + 0 + p.val; omega
  | ⟨1, _⟩ => show win0_1.index t (1 : Fin 2) * 1024 + 1 * (0 + 1 * q.val) = q.val; omega

theorem pairs_load_hi (c : Dev nD) (t : Fin cfg0.N) (p : Fin 8) (q : Fin 1024) :
    View.ld (iblk m c 1 t) r0_5 (ix2 p q)
      = V m c main_v5 (ix2 (⟨16 * t.val + 8 + p.val, by have := point_lt t; omega⟩ : Fin 1024) q) := by
  obtain ⟨-, -, -, -, -, -, i10, i11, -⟩ := idx_facts t
  show V m c main_v5 (((cfg0.win 1).blk t).view.emb (r0_5.emb (ix2 p q))) = _
  refine congrArg (V m c main_v5) (funext fun a => Fin.ext ?_)
  match a with
  | ⟨0, _⟩ => show win0_1.index t (0 : Fin 2) * 16 + 1 * (8 + 1 * p.val) = 16 * t.val + 8 + p.val; omega
  | ⟨1, _⟩ => show win0_1.index t (1 : Fin 2) * 1024 + 1 * (0 + 1 * q.val) = q.val; omega

/-- WHAT POINT `t` WRITES BACK is block `t` of `whole` of the arrays as the region finds them. -/
theorem flushed_eq (c : Dev nD) (t : Fin cfg0.N) :
    (dats m 0 c).flushed 4 t = ((cfg0.win 4).blk t).view.read (Elt Ideal)
      (whole (V m c main_v8) (V m c main_v5) (V m c main_v6) (V m c main_v7)) := by
  show (cfg0.win 4).cut (grid0.coords t) ((dats m 0 c).after 4 t) = _
  rw [after0_4]
  unfold out0_4
  obtain ⟨i40, i41, i42, -⟩ := idx_facts t
  have ht := point_lt t
  funext y
  refine (View.canon_apply_of_pieces (Val := Elt Ideal)
    (fun y' : S16x1024x128.Idx => whole (V m c main_v8) (V m c main_v5) (V m c main_v6) (V m c main_v7) (((cfg0.win 4).blk t).view.emb y'))
    _ (List.forall_mem_cons.mpr ⟨?_, List.forall_mem_cons.mpr ⟨?_, fun _ hn => absurd hn List.not_mem_nil⟩⟩) _ (cover0_4 _ _ _)).trans rfl
  · -- the second half: source nodes 16·t + 8 … 16·t + 15
    intro x
    obtain ⟨p, q, h, rfl⟩ : ∃ (p : Fin 8) (q : Fin 1024) (h : Fin 128), x = ix3 p q h := ⟨x 0, x 1, x 2, eq_ix3 x⟩
    show k0_pay4 (F := Ideal) (View.ld (iblk m c 2 t) r0_0) (View.ld (iblk m c 3 t) r0_1) (View.ld (iblk m c 0 t) r0_4)
        (View.ld (iblk m c 1 t) r0_5) (ix3 p q h)
      = whole (V m c main_v8) (V m c main_v5) (V m c main_v6) (V m c main_v7) (((cfg0.win 4).blk t).view.emb (r0_4.emb (ix3 p q h)))
    rw [secondHalf_eq]
    refine (half_at m c t 8 (by omega) _ _ _ _ (weight_load m c t) (bias_load m c t) (slab_load_hi m c t) (pairs_load_hi m c t) p q h).trans ?_
    refine congrArg (whole (V m c main_v8) (V m c main_v5) (V m c main_v6) (V m c main_v7)) (funext fun a => Fin.ext ?_)
    match a with
    | ⟨0, _⟩ => show 16 * t.val + 8 + p.val = win0_4.index t (0 : Fin 3) * 16 + 1 * (8 + 1 * p.val); omega
    | ⟨1, _⟩ => show q.val = win0_4.index t (1 : Fin 3) * 1024 + 1 * (0 + 1 * q.val); omega
    | ⟨2, _⟩ => show h.val = win0_4.index t (2 : Fin 3) * 128 + 1 * (0 + 1 * h.val); omega
  · -- the first half: source nodes 16·t … 16·t + 7
    intro x
    obtain ⟨p, q, h, rfl⟩ : ∃ (p : Fin 8) (q : Fin 1024) (h : Fin 128), x = ix3 p q h := ⟨x 0, x 1, x 2, eq_ix3 x⟩
    show k0_pay3 (F := Ideal) (View.ld (iblk m c 2 t) r0_0) (View.ld (iblk m c 3 t) r0_1) (View.ld (iblk m c 0 t) r0_2)
        (View.ld (iblk m c 1 t) r0_3) (ix3 p q h)
      = whole (V m c main_v8) (V m c main_v5) (V m c main_v6) (V m c main_v7) (((cfg0.win 4).blk t).view.emb (r0_2.emb (ix3 p q h)))
    refine (half_at m c t 0 (by omega) _ _ _ _ (weight_load m c t) (bias_load m c t) (slab_load_lo m c t) (pairs_load_lo m c t) p q h).trans ?_
    refine congrArg (whole (V m c main_v8) (V m c main_v5) (V m c main_v6) (V m c main_v7)) (funext fun a => Fin.ext ?_)
    match a with
    | ⟨0, _⟩ => show 16 * t.val + 0 + p.val = win0_4.index t (0 : Fin 3) * 16 + 1 * (0 + 1 * p.val); omega
    | ⟨1, _⟩ => show q.val = win0_4.index t (1 : Fin 3) * 1024 + 1 * (0 + 1 * q.val); omega
    | ⟨2, _⟩ => show h.val = win0_4.index t (2 : Fin 3) * 128 + 1 * (0 + 1 * h.val); omega

/-! ## The blocks tile the result array -/

/-- An index of the result array is in point `t`'s block iff each coordinate is in the block's range on its axis. -/
theorem mem_blk (t : Fin cfg0.N) (i : S1024x1024x128.Idx) :
    i ∈ ((cfg0.win 4).blk t).view.set ↔ ∀ a : Fin 3, win0_4.index t a * S16x1024x128.size a ≤ (i a).val
      ∧ (i a).val < win0_4.index t a * S16x1024x128.size a + S16x1024x128.size a := by
  show i ∈ ((View.whole main_v9).slice (win0_4.rect t)).set ↔ _
  rw [View.set_slice_whole, Rect.mem_set_unit]
  exact Iff.rfl

/-- Source node a's rows are written back by point a / 16. -/
theorem cover (i : S1024x1024x128.Idx) :
    ∃ t : Fin cfg0.N, (cfg0.win 4).flush t = true ∧ i ∈ ((cfg0.win 4).blk t).view.set := by
  have hi0 : (i 0).val < 1024 := (i 0).isLt
  have hi1 : (i 1).val < 1024 := (i 1).isLt
  have hi2 : (i 2).val < 128 := (i 2).isLt
  obtain ⟨t, htv⟩ : ∃ t : Fin cfg0.N, t.val = (i 0).val / 16 :=
    ⟨⟨(i 0).val / 16, lt_of_lt_of_eq (by omega : (i 0).val / 16 < 64) N_0.symm⟩, rfl⟩
  obtain ⟨i40, i41, i42, -⟩ := idx_facts t
  refine ⟨t, flush0_4 t, ?_⟩
  rw [mem_blk]
  intro a
  match a with
  | ⟨0, _⟩ => show win0_4.index t (0 : Fin 3) * 16 ≤ (i 0).val ∧ (i 0).val < win0_4.index t (0 : Fin 3) * 16 + 16; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 128 ≤ (i 2).val ∧ (i 2).val < win0_4.index t (2 : Fin 3) * 128 + 128; omega

/-- THE RESULT ARRAY after the region: `whole` of the arrays the region found. -/
theorem final (c : Dev nD) :
    (dats m 0 c).arrAt 4 cfg0.N = whole (V m c main_v8) (V m c main_v5) (V m c main_v6) (V m c main_v7) :=
  (dats m 0 c).arrAt_eq_of_cover 4 _ (fun t _ => flushed_eq m c t) cover

end Cert.KernelIdeal.Region

end
-- ==== Proof.Spec.lean ====
/-
  What both programs compute, as one function of the six argument arrays.

  There are 1024 nodes, each with a feature row of 128 numbers, and one edge for every ordered pair of nodes: the edge
  from node a to node b is row 1024·a + b of the edge array. The result has one row of 128 numbers per edge:

    result (e, h) = max ( (Σ_k edge (e, k) · We (h, k) + be h) + ⟨P a, Q b⟩ , 0 )        a = e / 1024,  b = e % 1024,

  where P a is node a's feature row multiplied by Wi (entry h' of it is Σ_k nf (a, k) · Wi (h', k)), Q b is node b's
  feature row multiplied by Wj, and ⟨P a, Q b⟩ = Σ_h' (P a) h' · (Q b) h' does not depend on h: the same number is added to
  all 128 entries of the edge's row.

  Everything is on the extended reals; the only laws used anywhere are that sums may be re-indexed and that a product
  or a sum of equal terms is equal. The zero the maximum is taken against is kept as the zero word: both programs
  print the same word, so it is never evaluated.
-/
import Idealize.ShloMosaic.PureOps.Ideal
import Idealize.ShloMosaic.Lib.ValueIdx

noncomputable section

namespace Cert.EdgeUpdate

open Idealize.ShloMosaic Idealize.ShloMosaic.ValueIdx

/-- Entry `h` of node `a`'s feature row multiplied by the weight matrix `W` (each output entry pairs the row with a
    ROW of `W`: the programs multiply by the transpose). -/
def proj (nf : (⟨2, ![1024, 128]⟩ : Shape).Idx → EReal) (W : (⟨2, ![128, 128]⟩ : Shape).Idx → EReal)
    (a : Fin 1024) (h : Fin 128) : EReal :=
  ∑ k : Fin 128, nf (ix2 a k) * W (ix2 h k)

/-- The inner product of node `a`'s row projected by `Wi` with node `b`'s row projected by `Wj`. -/
def pairDot (nf : (⟨2, ![1024, 128]⟩ : Shape).Idx → EReal) (Wi Wj : (⟨2, ![128, 128]⟩ : Shape).Idx → EReal)
    (a b : Fin 1024) : EReal :=
  ∑ h : Fin 128, proj nf Wi a h * proj nf Wj b h

/-- Entry `h` of edge `e`'s feature row through the linear layer: multiplied by `We`, the bias added. -/
def edgeLin (edge : (⟨2, ![1048576, 128]⟩ : Shape).Idx → EReal) (We : (⟨2, ![128, 128]⟩ : Shape).Idx → EReal)
    (be : (⟨1, ![128]⟩ : Shape).Idx → EReal) (e : Fin 1048576) (h : Fin 128) : EReal :=
  (∑ k : Fin 128, edge (ix2 e k) * We (ix2 h k)) + be (ix1 h)

/-- The node an edge leaves, and the node it enters: edge `e` is the pair (e / 1024, e % 1024). -/
def src (e : Fin 1048576) : Fin 1024 := ⟨e.val / 1024, by have := e.isLt; omega⟩
def dst (e : Fin 1048576) : Fin 1024 := ⟨e.val % 1024, by omega⟩

/-- The result array. -/
def result (nf : (⟨2, ![1024, 128]⟩ : Shape).Idx → EReal) (edge : (⟨2, ![1048576, 128]⟩ : Shape).Idx → EReal)
    (We : (⟨2, ![128, 128]⟩ : Shape).Idx → EReal) (be : (⟨1, ![128]⟩ : Shape).Idx → EReal)
    (Wi Wj : (⟨2, ![128, 128]⟩ : Shape).Idx → EReal) : (⟨2, ![1048576, 128]⟩ : Shape).Idx → EReal := fun i =>
  max (edgeLin edge We be (i 0) (i 1) + pairDot nf Wi Wj (src (i 0)) (dst (i 0))) (Ideal.ofBits .f32 0x00000000#32)

/-- The result at an entry given by its edge and its feature. -/
theorem result_apply (nf : (⟨2, ![1024, 128]⟩ : Shape).Idx → EReal) (edge : (⟨2, ![1048576, 128]⟩ : Shape).Idx → EReal)
    (We : (⟨2, ![128, 128]⟩ : Shape).Idx → EReal) (be : (⟨1, ![128]⟩ : Shape).Idx → EReal)
    (Wi Wj : (⟨2, ![128, 128]⟩ : Shape).Idx → EReal) (e : Fin 1048576) (h : Fin 128) :
    result nf edge We be Wi Wj (ix2 e h)
      = max (edgeLin edge We be e h + pairDot nf Wi Wj (src e) (dst e)) (Ideal.ofBits .f32 0x00000000#32) := rfl

end Cert.EdgeUpdate

end
-- ==== Proof.Operands.lean ====
/-
  What the region finds in its four operand arrays.

  Before the kernel is launched the host program prepares its operands from the arguments: the edge array is read as a
  [1024, 1024, 128] array (row 1024·a + b becomes row (a, b)); We is transposed; the bias is given a leading unit axis; and
  the table of node-pair inner products is computed — the node array times the transpose of Wi, the node array times the
  transpose of Wj, and the first product times the transpose of the second. Read at an entry each of these is what the
  specification names: an edge row, an entry of We with its coordinates swapped, an entry of the bias, and the inner
  product of the two projected rows.
-/
import proofs.«174411_j23983097381473_2_alg».proof.Proof.Gen.KernelIdeal.Frame
import proofs.«174411_j23983097381473_2_alg».proof.Proof.LibPlainDot
import proofs.«174411_j23983097381473_2_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Operands

open Cert.KernelIdeal Cert.KernelIdeal.Gen Idealize.ShloMosaic Idealize.ShloMosaic.TcCoe Idealize.SL.Sem
open Idealize.ShloMosaic.ValueIdx Cert.EdgeUpdate

/-! ## The four operands as functions of the arguments -/

/-- The edge array with its rows paired off by source and destination node. -/
def edges (x1 : S1048576x128.Idx → EReal) : S1024x1024x128.Idx → EReal :=
  shapeCast S1024x1024x128 x1 shapeCasts_S1048576x128_S1024x1024x128

/-- We transposed. -/
def weightT (x2 : S128x128.Idx → EReal) : S128x128.Idx → EReal :=
  transpose S128x128 [1, 0] x2 transposes_S128x128_S128x128_1_0

/-- The bias as a one-row matrix. -/
def biasRow (x3 : S128.Idx → EReal) : S1x128.Idx → EReal :=
  shapeCast S1x128 x3 shapeCasts_S128_S1x128

/-- The table of inner products of projected node rows. -/
def pairs (x0 : S1024x128.Idx → EReal) (x4 x5 : S128x128.Idx → EReal) : S1024x1024.Idx → EReal :=
  Host.dotGeneral (F := Ideal) (φ₁ := .f32) (φ₂ := .f32) dot_S1024x128_S128x1024_S1024x1024_1_0_0_1_n_n (some .fp32)
    (Host.dotGeneral (F := Ideal) (φ₁ := .f32) (φ₂ := .f32) dot_S1024x128_S128x128_S1024x128_1_0_0_1_n_n (some .fp32) x0
      (transpose S128x128 [1, 0] x4 transposes_S128x128_S128x128_1_0))
    (transpose S128x1024 [1, 0]
      (Host.dotGeneral (F := Ideal) (φ₁ := .f32) (φ₂ := .f32) dot_S1024x128_S128x128_S1024x128_1_0_0_1_n_n (some .fp32) x0
        (transpose S128x128 [1, 0] x5 transposes_S128x128_S128x128_1_0))
      transposes_S1024x128_S128x1024_1_0)

/-! ## Each read at an entry -/

/-- The edge from node `a` to node `b`. -/
def edgeOf (a b : Fin 1024) : Fin 1048576 := ⟨a.val * 1024 + b.val, by omega⟩

theorem edges_apply (x1 : S1048576x128.Idx → EReal) (a b : Fin 1024) (k : Fin 128) :
    edges x1 (ix3 a b k) = x1 (ix2 (edgeOf a b) k) :=
  shapeCast_apply x1 _ _ _ (by
    rw [Shape.rowMajor_val_three, Shape.rowMajor_val_two]
    rfl)

theorem weightT_apply (x2 : S128x128.Idx → EReal) (k h : Fin 128) : weightT x2 (ix2 k h) = x2 (ix2 h k) :=
  transpose_ix2_apply x2 _ k h

theorem biasRow_apply (x3 : S128.Idx → EReal) (u : Fin 1) (h : Fin 128) : biasRow x3 (ix2 u h) = x3 (ix1 h) :=
  shapeCast_a_1a_apply x3 _ u h

/-- A projection of the node array, as the host computes it, is the specification's. -/
theorem proj_apply (x0 : S1024x128.Idx → EReal) (W : S128x128.Idx → EReal) (a : Fin 1024) (g : Fin 128) :
    Host.dotGeneral (F := Ideal) (φ₁ := .f32) (φ₂ := .f32) dot_S1024x128_S128x128_S1024x128_1_0_0_1_n_n (some .fp32) x0
      (transpose S128x128 [1, 0] W transposes_S128x128_S128x128_1_0) (ix2 a g) = proj x0 W a g := by
  rw [PlainDot.hostDot_apply dot_S1024x128_S128x128_S1024x128_1_0_0_1_n_n rfl]
  unfold proj
  refine Finset.sum_congr rfl fun k _ => ?_
  show x0 (ix2 a k) * transpose S128x128 [1, 0] W transposes_S128x128_S128x128_1_0 (ix2 k g) = _
  rw [transpose_ix2_apply]

theorem pairs_apply (x0 : S1024x128.Idx → EReal) (x4 x5 : S128x128.Idx → EReal) (a b : Fin 1024) :
    pairs x0 x4 x5 (ix2 a b) = pairDot x0 x4 x5 a b := by
  unfold pairs
  rw [PlainDot.hostDot_apply dot_S1024x128_S128x1024_S1024x1024_1_0_0_1_n_n rfl]
  unfold pairDot
  refine Finset.sum_congr rfl fun g _ => ?_
  show Host.dotGeneral (F := Ideal) (φ₁ := .f32) (φ₂ := .f32) dot_S1024x128_S128x128_S1024x128_1_0_0_1_n_n (some .fp32) x0
      (transpose S128x128 [1, 0] x4 transposes_S128x128_S128x128_1_0) (ix2 a g)
    * transpose S128x1024 [1, 0]
      (Host.dotGeneral (F := Ideal) (φ₁ := .f32) (φ₂ := .f32) dot_S1024x128_S128x128_S1024x128_1_0_0_1_n_n (some .fp32) x0
        (transpose S128x128 [1, 0] x5 transposes_S128x128_S128x128_1_0))
      transposes_S1024x128_S128x1024_1_0 (ix2 g b) = _
  rw [transpose_ix2_apply, proj_apply, proj_apply]

/-! ## The region finds them -/

variable (m : (ℓ : Loc nD τ sig) → Buf (Elt Ideal) ℓ)

theorem V_edges (c : Dev nD) : (V m c main_v8 : S1024x1024x128.Idx → EReal) = edges (m ((c : Thread nD τ).loc main_arg1)) := by
  show StableHlo.after hostOps0 (fun b => m (c, b)) (Proc.devRef .tc main_v8) = _
  after_results
  rfl

theorem V_weightT (c : Dev nD) : (V m c main_v6 : S128x128.Idx → EReal) = weightT (m ((c : Thread nD τ).loc main_arg2)) := by
  show StableHlo.after hostOps0 (fun b => m (c, b)) (Proc.devRef .tc main_v6) = _
  after_results
  rfl

theorem V_biasRow (c : Dev nD) : (V m c main_v7 : S1x128.Idx → EReal) = biasRow (m ((c : Thread nD τ).loc main_arg3)) := by
  show StableHlo.after hostOps0 (fun b => m (c, b)) (Proc.devRef .tc main_v7) = _
  after_results
  rfl

theorem V_pairs (c : Dev nD) : (V m c main_v5 : S1024x1024.Idx → EReal)
    = pairs (m ((c : Thread nD τ).loc main_arg0)) (m ((c : Thread nD τ).loc main_arg4)) (m ((c : Thread nD τ).loc main_arg5)) := by
  show StableHlo.after hostOps0 (fun b => m (c, b)) (Proc.devRef .tc main_v5) = _
  after_results
  rfl

end Cert.KernelIdeal.Operands

end
-- ==== Proof.KernelValue.lean ====
/-
  The idealized kernel program's result is the specification.

  The program is three stages: the host prepares the four operand arrays from the arguments; the region fills the
  [1024, 1024, 128] result array, which ends holding `Region.whole` of those operands; and one last host line reads that array
  as [1048576, 128], row (a, b) becoming row 1024·a + b. Row e of the final result is therefore row (e / 1024, e % 1024) of the
  region's, whose edge row is row 1024·(e / 1024) + e % 1024 = e of the edge argument: the two reshapes undo each other, and
  what is left is the specification's formula at edge e, with its source and destination nodes.
-/
import proofs.«174411_j23983097381473_2_alg».proof.Proof.RegionValue
import proofs.«174411_j23983097381473_2_alg».proof.Proof.Operands
import proofs.«174411_j23983097381473_2_alg».proof.Proof.Spec
import Idealize.ShloMosaic.Lib.StableHlo.Run

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.Pipeline (Dat)
open Idealize.ShloMosaic.ValueIdx Cert.EdgeUpdate Cert.KernelIdeal.Region Cert.KernelIdeal.Operands

/-- The region's function of the prepared operands, read back edge by edge, is the specification. -/
theorem whole_eq_result (x0 : S1024x128.Idx → EReal) (x1 : S1048576x128.Idx → EReal) (x2 : S128x128.Idx → EReal)
    (x3 : S128.Idx → EReal) (x4 x5 : S128x128.Idx → EReal) :
    shapeCast S1048576x128 (whole (edges x1) (pairs x0 x4 x5) (weightT x2) (biasRow x3)) shapeCasts_S1024x1024x128_S1048576x128
      = result x0 x1 x2 x3 x4 x5 := by
  funext i
  obtain ⟨e, h, rfl⟩ : ∃ (e : Fin 1048576) (h : Fin 128), i = ix2 e h := ⟨i 0, i 1, eq_ix2 i⟩
  rw [shapeCast_apply _ _ (ix2 e h) (ix3 (src e) (dst e) h) (by
    rw [Shape.rowMajor_val_three, Shape.rowMajor_val_two]
    show (e.val / 1024 * 1024 + e.val % 1024) * 128 + h.val = e.val * 128 + h.val
    rw [Nat.div_add_mod' e.val 1024])]
  have he : edgeOf (src e) (dst e) = e := Fin.ext (Nat.div_add_mod' e.val 1024)
  rw [whole_apply, result_apply]
  unfold edgeLin
  simp only [edges_apply, weightT_apply, biasRow_apply, pairs_apply, he]

variable (m : (ℓ : Loc nD τ sig) → Buf (Elt Ideal) ℓ) (ρ : Dev nD → PrngReg)

/-- After the run the result buffer holds the region's array read as [1048576, 128]: the one host line after the region. -/
theorem result_post (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_v10)
      = shapeCast S1048576x128 ((dats m 0 c).arrAt 4 cfg0.N) shapeCasts_S1024x1024x128_S1048576x128 := by
  refine ((h c).2 main_v10 (Pipeline.mem_restRefs_of main_v10 (by decide) (by decide))).trans ?_
  unfold Pipeline.afterTail₀
  show StableHlo.after hostOps1 _ (Proc.devRef .tc main_v10) = _
  after_results
  have hw : Pipeline.withArrays (cfgs 0).spec c (V0 m c) (fun w => (dats m 0 c).arrAt w (cfgs 0).N) (Proc.devRef .tc main_v9)
      = (dats m 0 c).arrAt 4 cfg0.N :=
    Pipeline.withArrays_arr spec0 launch0.win.arr_inj c (V0 m c) _ 4
  exact congrArg (fun X => shapeCast S1048576x128 X shapeCasts_S1024x1024x128_S1048576x128) hw

/-- That array, read so, is the specification of the arguments as launched. -/
theorem value (c : Dev nD) :
    shapeCast S1048576x128 ((dats m 0 c).arrAt 4 cfg0.N) shapeCasts_S1024x1024x128_S1048576x128
      = result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  rw [final m c, V_edges, V_pairs, V_weightT, V_biasRow]
  exact whole_eq_result _ _ _ _ _ _

/-- THE RUN: every weakly fair execution of the idealized kernel program terminates with the result buffer at the
    specification of the arguments, and the arguments unchanged. -/
theorem run : θ_run defs (onTc (τ := τ) (main (F := Ideal))) ⟨m, fun _ => 0, ρ⟩ fun r => ∀ c : Dev nD,
      r.2.mem ((c.tc : Thread nD τ).loc main_v10)
        = result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(result_post m r h c).trans (value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.KernelValue

end
-- ==== Proof.RefSpec.lean ====
/-
  The reference program computes the specification.

  The reference multiplies the edge array by the transpose of We and adds the bias row; multiplies the node array by the
  transposes of Wi and of Wj; contracts the two projections over their common feature axis into a 1024 × 1024 table of
  inner products; reads that table as one column of 1024·1024 numbers, entry 1024·a + b being the pair (a, b); adds
  the column's number to all 128 entries of the edge's row; and takes the maximum with zero. Read at an entry (e, h), with every
  layout step followed back to the argument it reads, that is the specification's formula term for term: the products are
  sums over the one contracted coordinate, a transpose swaps the two coordinates, and the column's entry e is the
  table's entry (e / 1024, e % 1024).
-/
import proofs.«174411_j23983097381473_2_alg».proof.Proof.Gen.ReferenceIdeal.Read
import proofs.«174411_j23983097381473_2_alg».proof.Proof.Spec

noncomputable section

namespace Cert.ReferenceIdeal.RefValue

open Cert.ReferenceIdeal Cert.ReferenceIdeal.Read Idealize.ShloMosaic Idealize.ShloMosaic.ValueIdx Cert.EdgeUpdate

/-! ## Where each stage reads its operand, in coordinates -/

/-- The edge product reads the edge array at (e, k). -/
theorem edge_at (e : Fin 1048576) (h k : Fin 128) : lidx_main_v1 (ix2 e h) k = ix2 e k :=
  funext fun a => Fin.ext (by match a with | ⟨0, _⟩ => rfl | ⟨1, _⟩ => rfl)

/-- And We, through its transpose, at (h, k). -/
theorem We_at (e : Fin 1048576) (h k : Fin 128) : idx_main_v0 (ridx_main_v1 (ix2 e h) k) = ix2 h k :=
  funext fun a => Fin.ext (by match a with | ⟨0, _⟩ => rfl | ⟨1, _⟩ => rfl)

/-- The bias, broadcast twice, is read at h. -/
theorem be_at (e : Fin 1048576) (h : Fin 128) : idx_main_v2 (idx_main_v3 (ix2 e h)) = ix1 h :=
  funext fun a => Fin.ext (by match a with | ⟨0, _⟩ => rfl)

/-- Entry e of the column is the table's entry (e / 1024, e % 1024). -/
theorem pair_at (e : Fin 1048576) (h : Fin 128) : idx_main_v10 (idx_main_v11 (ix2 e h)) = ix2 (src e) (dst e) :=
  funext fun a => Fin.ext (by
    match a with
    | ⟨0, _⟩ => show (e.val * 1 + 0) / 1024 = e.val / 1024; omega
    | ⟨1, _⟩ => show (e.val * 1 + 0) % 1024 = e.val % 1024; omega)

/-- The table's entry (a, b) contracts row a of the first projection … -/
theorem projL_at (a b : Fin 1024) (g k : Fin 128) : lidx_main_v6 (lidx_main_v9 (ix2 a b) g) k = ix2 a k :=
  funext fun c => Fin.ext (by match c with | ⟨0, _⟩ => rfl | ⟨1, _⟩ => rfl)
theorem Wi_at (a b : Fin 1024) (g k : Fin 128) : idx_main_v5 (ridx_main_v6 (lidx_main_v9 (ix2 a b) g) k) = ix2 g k :=
  funext fun c => Fin.ext (by match c with | ⟨0, _⟩ => rfl | ⟨1, _⟩ => rfl)
/-- … with row b of the second. -/
theorem projR_at (a b : Fin 1024) (g k : Fin 128) : lidx_main_v8 (ridx_main_v9 (ix2 a b) g) k = ix2 b k :=
  funext fun c => Fin.ext (by match c with | ⟨0, _⟩ => rfl | ⟨1, _⟩ => rfl)
theorem Wj_at (a b : Fin 1024) (g k : Fin 128) : idx_main_v7 (ridx_main_v8 (ridx_main_v9 (ix2 a b) g) k) = ix2 g k :=
  funext fun c => Fin.ext (by match c with | ⟨0, _⟩ => rfl | ⟨1, _⟩ => rfl)

/-! ## The reference's result is the specification -/

theorem result_eq (x0 : S1024x128.Idx → EReal) (x1 : S1048576x128.Idx → EReal) (x2 : S128x128.Idx → EReal)
    (x3 : S128.Idx → EReal) (x4 x5 : S128x128.Idx → EReal) :
    val_main_v13 (F := Ideal) x0 x1 x2 x3 x4 x5 = result x0 x1 x2 x3 x4 x5 := by
  funext i
  obtain ⟨e, h, rfl⟩ : ∃ (e : Fin 1048576) (h : Fin 128), i = ix2 e h := ⟨i 0, i 1, eq_ix2 i⟩
  rw [val_main_v13_apply, val_main_v12_apply, val_main_v4_apply, val_main_v1_apply, val_main_v3_apply, val_main_v2_apply,
    val_main_v11_apply, val_main_v10_apply, pair_at, val_main_v9_apply, val_main_call0_v0_apply, val_main_call0_cst_apply]
  simp only [val_main_v0_apply, val_main_v6_apply, val_main_v8_apply, val_main_v5_apply, val_main_v7_apply,
    edge_at, We_at, be_at, projL_at, Wi_at, projR_at, Wj_at]
  rfl

end Cert.ReferenceIdeal.RefValue

end
-- ==== Proof.lean ====
/-
  An edge update of a complete graph on 1024 nodes: every edge's feature row goes through a linear layer with bias, the
  inner product of its two end nodes' projected feature rows is added to every entry of the row, and negative entries are
  set to zero. The kernel computes it block by block of 16 source nodes (the edge rows multiplied by the weight block on the
  matrix unit in two halves of 8); the reference computes it as one chain of whole-array operations.

  On the extended reals the two are one function of the six argument arrays, `Cert.EdgeUpdate.result` (Proof/Spec.lean):

      result (e, h) = max ( (Σ_k edge (e, k) · We (h, k) + be h) + Σ_g (Σ_k nf (a, k) · Wi (g, k)) · (Σ_k nf (b, k) · Wj (g, k)) , 0 ),
      a = e / 1024,  b = e % 1024.

  No law of arithmetic beyond re-indexing a sum is needed — the two programs add the same terms in the same grouping — so the
  finiteness of the inputs is never used. The kernel's side: Proof/KernelBody.lean (one store of the body at an entry),
  Proof/RegionValue.lean (the 64 blocks tile the result array, which ends at one whole-array function of the operands),
  Proof/Operands.lean (the operands the host prepares, read at an entry), Proof/KernelValue.lean (the run). The reference's
  side: Proof/RefSpec.lean. A plain matrix product read at an entry is Proof/LibPlainDot.lean.

  The three frames are the generated ones (the reference's is its run with the result dropped); nothing was rewritten when the
  kernel was idealized, so that conjunct is trivial.
-/
import proofs.«174411_j23983097381473_2_alg».proof.Defs
import proofs.«174411_j23983097381473_2_alg».proof.Proof.Gen.Kernel
import proofs.«174411_j23983097381473_2_alg».proof.Proof.Gen.Kernel.Skeleton
import proofs.«174411_j23983097381473_2_alg».proof.Proof.Gen.Kernel.Launch
import proofs.«174411_j23983097381473_2_alg».proof.Proof.Gen.Kernel.Points
import proofs.«174411_j23983097381473_2_alg».proof.Proof.Gen.Kernel.Frame
import proofs.«174411_j23983097381473_2_alg».proof.Proof.Gen.KernelIdeal
import proofs.«174411_j23983097381473_2_alg».proof.Proof.Gen.KernelIdeal.Skeleton
import proofs.«174411_j23983097381473_2_alg».proof.Proof.Gen.KernelIdeal.Launch
import proofs.«174411_j23983097381473_2_alg».proof.Proof.Gen.KernelIdeal.Points
import proofs.«174411_j23983097381473_2_alg».proof.Proof.Gen.KernelIdeal.Frame
import proofs.«174411_j23983097381473_2_alg».proof.Proof.Gen.ReferenceIdeal
import proofs.«174411_j23983097381473_2_alg».proof.Proof.Gen.Pre_finite_inputs
import proofs.«174411_j23983097381473_2_alg».proof.Proof.Gen.ReferenceIdeal.Run
import proofs.«174411_j23983097381473_2_alg».proof.Proof.Gen.ReferenceIdeal.Read
import proofs.«174411_j23983097381473_2_alg».proof.Proof.KernelValue
import proofs.«174411_j23983097381473_2_alg».proof.Proof.RefSpec
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- And the idealized reference: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the six arguments both idealized programs end with the result buffer at the
    specification of those arguments. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.result_eq,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
